-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x32x32 : Shape := ⟨4, ![64, 256, 32, 32]⟩
abbrev S16x256 : Shape := ⟨2, ![16, 256]⟩
abbrev S256x16 : Shape := ⟨2, ![256, 16]⟩
abbrev S_ : Shape := ⟨0, ![]⟩

class Facts : Prop where
  bcast_S_S64x256x32x32 : S_.BroadcastsInDim S64x256x32x32 (![] : Fin 0 → Fin S64x256x32x32.rank)
  reducesTo_S64x256x32x32_S_d0_1_2_3 : S64x256x32x32.ReducesTo [0, 1, 2, 3] S_
  h_S_ : 0 < S_.numel
  bcast_S_S16x256 : S_.BroadcastsInDim S16x256 (![] : Fin 0 → Fin S16x256.rank)
  reducesTo_S16x256_S_d0_1 : S16x256.ReducesTo [0, 1] S_
  bcast_S_S256x16 : S_.BroadcastsInDim S256x16 (![] : Fin 0 → Fin S256x16.rank)
  reducesTo_S256x16_S_d0_1 : S256x16.ReducesTo [0, 1] S_

variable [Facts]

def fn {F : FTy → Type} [FloatOps F] (main_arg0 : FVec F S64x256x32x32 .f32) (main_arg1 : FVec F S16x256 .f32) (main_arg2 : FVec F S256x16 .f32) : IVec S_ 1 :=
  let main_v0 : FVec F S64x256x32x32 .f32 := Host.absf main_arg0
  let main_cst : FVec F S_ .f32 := constant S_ .f32 0x7F800000#32
  let main_v1 : FVec F S64x256x32x32 .f32 := broadcastInDim S64x256x32x32 ![] bcast_S_S64x256x32x32 main_cst
  let main_v2 : IVec S64x256x32x32 1 := cmpf .olt main_v0 main_v1
  let main_c : IVec S_ 1 := constantI S_ 1 1#1
  let main_v3 : IVec S_ 1 := (fun x v => Host.reduce IntOp.andi x v reducesTo_S64x256x32x32_S_d0_1_2_3 h_S_) main_v2 main_c
  let main_v4 : FVec F S16x256 .f32 := Host.absf main_arg1
  let main_cst_0 : FVec F S_ .f32 := constant S_ .f32 0x7F800000#32
  let main_v5 : FVec F S16x256 .f32 := broadcastInDim S16x256 ![] bcast_S_S16x256 main_cst_0
  let main_v6 : IVec S16x256 1 := cmpf .olt main_v4 main_v5
  let main_c_1 : IVec S_ 1 := constantI S_ 1 1#1
  let main_v7 : IVec S_ 1 := (fun x v => Host.reduce IntOp.andi x v reducesTo_S16x256_S_d0_1 h_S_) main_v6 main_c_1
  let main_v8 : IVec S_ 1 := andi main_v3 main_v7
  let main_v9 : FVec F S256x16 .f32 := Host.absf main_arg2
  let main_cst_2 : FVec F S_ .f32 := constant S_ .f32 0x7F800000#32
  let main_v10 : FVec F S256x16 .f32 := broadcastInDim S256x16 ![] bcast_S_S256x16 main_cst_2
  let main_v11 : IVec S256x16 1 := cmpf .olt main_v9 main_v10
  let main_c_3 : IVec S_ 1 := constantI S_ 1 1#1
  let main_v12 : IVec S_ 1 := (fun x v => Host.reduce IntOp.andi x v reducesTo_S256x16_S_d0_1 h_S_) main_v11 main_c_3
  let main_v13 : IVec S_ 1 := andi main_v8 main_v12
  main_v13
-- ==== Kernel.lean ====
abbrev S64x256x32x32 : Shape := ⟨4, ![64, 256, 32, 32]⟩
abbrev S16x256 : Shape := ⟨2, ![16, 256]⟩
abbrev S256x16 : Shape := ⟨2, ![256, 16]⟩
abbrev S64x32x32x256 : Shape := ⟨4, ![64, 32, 32, 256]⟩
abbrev S8x32x32x256 : Shape := ⟨4, ![8, 32, 32, 256]⟩
abbrev S8x256 : Shape := ⟨2, ![8, 256]⟩
abbrev S8x16 : Shape := ⟨2, ![8, 16]⟩
abbrev S8x1x1x256 : Shape := ⟨4, ![8, 1, 1, 256]⟩

abbrev nBuf : Space → Nat
  | .hbm => 7
  | .vmem => 6
  | .smem => 0
  | _ => 0

abbrev bufTy : (tb : Table) → Fin (tcTables nBuf tb) → BufTy
  | .hbm, ⟨0, _⟩ => ⟨S64x256x32x32, .f32⟩
  | .hbm, ⟨1, _⟩ => ⟨S16x256, .f32⟩
  | .hbm, ⟨2, _⟩ => ⟨S256x16, .f32⟩
  | .hbm, ⟨3, _⟩ => ⟨S64x32x32x256, .f32⟩
  | .hbm, ⟨4, _⟩ => ⟨S16x256, .f32⟩
  | .hbm, ⟨5, _⟩ => ⟨S64x32x32x256, .f32⟩
  | .hbm, ⟨6, _⟩ => ⟨S64x256x32x32, .f32⟩
  | .local _ .vmem, ⟨0, _⟩ => ⟨S8x32x32x256, .f32⟩
  | .local _ .vmem, ⟨1, _⟩ => ⟨S8x32x32x256, .f32⟩
  | .local _ .vmem, ⟨2, _⟩ => ⟨S16x256, .f32⟩
  | .local _ .vmem, ⟨3, _⟩ => ⟨S16x256, .f32⟩
  | .local _ .vmem, ⟨4, _⟩ => ⟨S8x32x32x256, .f32⟩
  | .local _ .vmem, ⟨5, _⟩ => ⟨S8x32x32x256, .f32⟩
  | _, _ => ⟨S64x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x32x32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x32x32x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S64x256x32x32_S64x32x32x256_0_2_3_1 : S64x256x32x32.Transposes [0, 2, 3, 1] S64x32x32x256
  transposes_S256x16_S16x256_1_0 : S256x16.Transposes [1, 0] S16x256
  inb_S8x32x32x256_S8x32x32x256_0_0_0_0 : ∀ a, (![0, 0, 0, 0] : Fin 4 → Nat) a + S8x32x32x256.size a ≤ S8x32x32x256.size a
  h_S8x32x32x256 : 0 < S8x32x32x256.numel
  shapeCasts_S8x32x32x256_S8x32x32x256 : S8x32x32x256.ShapeCasts S8x32x32x256
  reduces_S8x32x32x256_S8x256 : S8x32x32x256.Reduces [1, 2] S8x256
  inb_S16x256_S16x256_0_0 : ∀ a, (![0, 0] : Fin 2 → Nat) a + S16x256.size a ≤ S16x256.size a
  h_S16x256 : 0 < S16x256.numel
  shapeCasts_S16x256_S16x256 : S16x256.ShapeCasts S16x256
  shapeCasts_S8x256_S8x1x1x256 : S8x256.ShapeCasts S8x1x1x256
  broadcasts_S8x1x1x256_S8x32x32x256 : S8x1x1x256.Broadcasts S8x32x32x256
  transposes_S64x32x32x256_S64x256x32x32_0_3_1_2 : S64x32x32x256.Transposes [0, 3, 1, 2] S64x256x32x32
  dot_S8x256_S16x256_S8x16_1_1_0_0_n_n_wf : DotDims.WF S8x256 S16x256 S8x16 [1] [1] [0] [0] [] []
  dot_S8x16_S16x256_S8x256_1_0_0_1_n_n_wf : DotDims.WF S8x16 S16x256 S8x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x32x32x256.size a ≤ S64x32x32x256.size a
  hwx0_0 : ∀ i : grid0.Coords, EltTy.bits .f32 = 32 ∨ (Rect.block (s := S64x32x32x256) S8x32x32x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x256.size a ≤ S16x256.size a
  hwx0_1 : ∀ i : grid0.Coords, EltTy.bits .f32 = 32 ∨ (Rect.block (s := S16x256) S16x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x256.size a ≤ S16x256.size a
  hwx0_2 : ∀ i : grid0.Coords, EltTy.bits .f32 = 32 ∨ (Rect.block (s := S16x256) S16x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x32x32x256.size a ≤ S64x32x32x256.size a
  hwx0_3 : ∀ i : grid0.Coords, EltTy.bits .f32 = 32 ∨ (Rect.block (s := S64x32x32x256) S8x32x32x256.size (cc0_transform_3 i) (hinb0_3 i)).WholeWords (EltTy.packing .f32)

variable [Facts₀]

def dot_S8x256_S16x256_S8x16_1_1_0_0_n_n : DotDims S8x256 S16x256 S8x16 where
  lhsContracting := [1]
  rhsContracting := [1]
  lhsNonContracting := [0]
  rhsNonContracting := [0]
  lhsBatch := []
  rhsBatch := []
  wf := dot_S8x256_S16x256_S8x16_1_1_0_0_n_n_wf
def dot_S8x16_S16x256_S8x256_1_0_0_1_n_n : DotDims S8x16 S16x256 S8x256 where
  lhsContracting := [1]
  rhsContracting := [0]
  lhsNonContracting := [0]
  rhsNonContracting := [1]
  lhsBatch := []
  rhsBatch := []
  wf := dot_S8x16_S16x256_S8x256_1_0_0_1_n_n_wf

abbrev win0_0 : Pipeline.Window sig grid0 :=
  Pipeline.Window.ofSpec (Memref.whole main_v0) S8x32x32x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S16x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S8x32x32x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x256x32x32 : Shape := ⟨4, ![64, 256, 32, 32]⟩
abbrev S16x256 : Shape := ⟨2, ![16, 256]⟩
abbrev S256x16 : Shape := ⟨2, ![256, 16]⟩
abbrev S64x256x1024 : Shape := ⟨3, ![64, 256, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S16x1 : Shape := ⟨2, ![16, 1]⟩

abbrev nBuf : Space → Nat
  | .hbm => 6
  | .vmem => 6
  | .smem => 0
  | _ => 0

abbrev bufTy : (tb : Table) → Fin (tcTables nBuf tb) → BufTy
  | .hbm, ⟨0, _⟩ => ⟨S64x256x32x32, .f32⟩
  | .hbm, ⟨1, _⟩ => ⟨S16x256, .f32⟩
  | .hbm, ⟨2, _⟩ => ⟨S256x16, .f32⟩
  | .hbm, ⟨3, _⟩ => ⟨S64x256x1024, .f32⟩
  | .hbm, ⟨4, _⟩ => ⟨S64x256x1024, .f32⟩
  | .hbm, ⟨5, _⟩ => ⟨S64x256x32x32, .f32⟩
  | .local _ .vmem, ⟨0, _⟩ => ⟨S1x256x1024, .f32⟩
  | .local _ .vmem, ⟨1, _⟩ => ⟨S1x256x1024, .f32⟩
  | .local _ .vmem, ⟨2, _⟩ => ⟨S16x256, .f32⟩
  | .local _ .vmem, ⟨3, _⟩ => ⟨S256x16, .f32⟩
  | .local _ .vmem, ⟨4, _⟩ => ⟨S1x256x1024, .f32⟩
  | .local _ .vmem, ⟨5, _⟩ => ⟨S1x256x1024, .f32⟩
  | _, _ => ⟨S64x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S64x256x32x32_S64x256x1024 : S64x256x32x32.ShapeCasts S64x256x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  reduces_S256x1024_S256 : S256x1024.Reduces [1] S256
  shapeCasts_S256_S256x1 : S256.ShapeCasts S256x1
  inb_S16x256_S16x256_0_0 : ∀ a, (![0, 0] : Fin 2 → Nat) a + S16x256.size a ≤ S16x256.size a
  h_S16x256 : 0 < S16x256.numel
  inb_S256x16_S256x16_0_0 : ∀ a, (![0, 0] : Fin 2 → Nat) a + S256x16.size a ≤ S256x16.size a
  h_S256x16 : 0 < S256x16.numel
  broadcasts_S256x1_S256x1024 : S256x1.Broadcasts S256x1024
  shapeCasts_S256x1024_S1x256x1024 : S256x1024.ShapeCasts S1x256x1024
  shapeCasts_S64x256x1024_S64x256x32x32 : S64x256x1024.ShapeCasts S64x256x32x32
  dot_S16x256_S256x1_S16x1_1_0_0_1_n_n_wf : DotDims.WF S16x256 S256x1 S16x1 [1] [0] [0] [1] [] []
  dot_S256x16_S16x1_S256x1_1_0_0_1_n_n_wf : DotDims.WF S256x16 S16x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S64x256x1024.size a
  hwx0_0 : ∀ i : grid0.Coords, EltTy.bits .f32 = 32 ∨ (Rect.block (s := S64x256x1024) S1x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x256.size a ≤ S16x256.size a
  hwx0_1 : ∀ i : grid0.Coords, EltTy.bits .f32 = 32 ∨ (Rect.block (s := S16x256) S16x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x16.size a ≤ S256x16.size a
  hwx0_2 : ∀ i : grid0.Coords, EltTy.bits .f32 = 32 ∨ (Rect.block (s := S256x16) S256x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x1024.size a ≤ S64x256x1024.size a
  hwx0_3 : ∀ i : grid0.Coords, EltTy.bits .f32 = 32 ∨ (Rect.block (s := S64x256x1024) S1x256x1024.size (cc0_transform_3 i) (hinb0_3 i)).WholeWords (EltTy.packing .f32)

variable [Facts₀]

def dot_S16x256_S256x1_S16x1_1_0_0_1_n_n : DotDims S16x256 S256x1 S16x1 where
  lhsContracting := [1]
  rhsContracting := [0]
  lhsNonContracting := [0]
  rhsNonContracting := [1]
  lhsBatch := []
  rhsBatch := []
  wf := dot_S16x256_S256x1_S16x1_1_0_0_1_n_n_wf
def dot_S256x16_S16x1_S256x1_1_0_0_1_n_n : DotDims S256x16 S16x1 S256x1 where
  lhsContracting := [1]
  rhsContracting := [0]
  lhsNonContracting := [0]
  rhsNonContracting := [1]
  lhsBatch := []
  rhsBatch := []
  wf := dot_S256x16_S16x1_S256x1_1_0_0_1_n_n_wf

abbrev win0_0 : Pipeline.Window sig grid0 :=
  Pipeline.Window.ofSpec (Memref.whole main_v0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x256x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== Proof.Spec.lean ====
/-
  Squeeze-and-excitation channel attention over f32[64, 256, 32, 32], as one function of the three argument arrays,
  read at the extended reals.

  For batch entry b the input's channel c is averaged over its 32 × 32 positions with the weight 1/1024 (the pattern
  0x3A800000, the same on both sides, so never evaluated); a first layer takes the 256 averages to 16 hidden values,
  each clamped into [0, 6]; a second layer takes them back to 256 channel values; the logistic function makes each a
  gate, and every entry of channel c is multiplied by that channel's gate:

      G x w1 w2 (b, c, h, w) = x (b, c, h, w) · logistic (Σ_r clamp (Σ_c' mean x b c' · w1 (r, c')) · w2 (c, r)).

  The two programs differ from this form, and from each other, only in which factor of a product stands on the left,
  and in whether the 1024 positions of a channel are summed as 32 × 32 or as one run of 1024 in row-major order:
  `sum_flat` is that re-indexing, a bijection between Fin 1024 and Fin 32 × Fin 32, valid in any commutative monoid, so
  no finiteness of the inputs is needed.
-/
import Idealize.ShloMosaic.Lib.ValueIdx
import Idealize.ShloMosaic.PureOps.Ideal.Laws

noncomputable section

namespace Cert.SqueezeExcite

open Idealize.ShloMosaic Idealize.ShloMosaic.ValueIdx

/-- The weight of the average over 1024 positions, as both programs spell it. -/
abbrev wMean : EReal := Ideal.ofBits .f32 0x3A800000#32
/-- The clamp's bounds, as both programs spell them. -/
abbrev cLo : EReal := Ideal.ofBits .f32 0x00000000#32
abbrev cHi : EReal := Ideal.ofBits .f32 0x40C00000#32

/-- The average of channel `c` of batch entry `b` over its 32 × 32 positions. -/
def mean (x : FVec Ideal ⟨4, ![64, 256, 32, 32]⟩ .f32) (b : Fin 64) (c : Fin 256) : EReal :=
  (∑ h : Fin 32, ∑ w : Fin 32, x (ix4 b c h w)) * wMean

/-- Hidden value `r` of batch entry `b`: the first layer's row `r` against the averages, clamped into [0, 6]. -/
def hiddenVal (x : FVec Ideal ⟨4, ![64, 256, 32, 32]⟩ .f32) (w1 : FVec Ideal ⟨2, ![16, 256]⟩ .f32) (b : Fin 64) (r : Fin 16) : EReal :=
  min cHi (max cLo (∑ c : Fin 256, mean x b c * w1 (ix2 r c)))

/-- The gate of channel `c` of batch entry `b`. -/
def gate (x : FVec Ideal ⟨4, ![64, 256, 32, 32]⟩ .f32) (w1 : FVec Ideal ⟨2, ![16, 256]⟩ .f32) (w2 : FVec Ideal ⟨2, ![256, 16]⟩ .f32)
    (b : Fin 64) (c : Fin 256) : EReal :=
  Ideal.logistic (∑ r : Fin 16, hiddenVal x w1 b r * w2 (ix2 c r))

/-- The result: every entry times its channel's gate. -/
def G (x : FVec Ideal ⟨4, ![64, 256, 32, 32]⟩ .f32) (w1 : FVec Ideal ⟨2, ![16, 256]⟩ .f32) (w2 : FVec Ideal ⟨2, ![256, 16]⟩ .f32) :
    FVec Ideal ⟨4, ![64, 256, 32, 32]⟩ .f32 :=
  fun i => x i * gate x w1 w2 (i 0) (i 1)

/-- Position `k` of a channel's run of 1024, in row-major order over its 32 × 32 positions, is row `k / 32` … -/
def rowOf (k : Fin 1024) : Fin 32 := ⟨k.val / 32, by have := k.isLt; omega⟩
/-- … and column `k % 32`. -/
def colOf (k : Fin 1024) : Fin 32 := ⟨k.val % 32, Nat.mod_lt _ (by decide)⟩

/-- A run of 1024 terms in row-major order over 32 × 32 is the double sum. -/
theorem sum_flat {M : Type*} [AddCommMonoid M] (f : Fin 32 → Fin 32 → M) :
    ∑ k : Fin 1024, f (rowOf k) (colOf k) = ∑ h : Fin 32, ∑ w : Fin 32, f h w := by
  rw [← Fintype.sum_prod_type' (f := f)]
  refine (Equiv.sum_comp (finProdFinEquiv (m := 32) (n := 32)) (fun k : Fin (32 * 32) =>
    f (rowOf k) (colOf k))).symm.trans ?_
  refine Finset.sum_congr rfl fun p _ => ?_
  obtain ⟨h, w⟩ := p
  have e1 : (finProdFinEquiv (h, w)).val / 32 = h.val := by
    show (w.val + 32 * h.val) / 32 = h.val
    have := w.isLt; omega
  have e2 : (finProdFinEquiv (h, w)).val % 32 = w.val := by
    show (w.val + 32 * h.val) % 32 = w.val
    have := w.isLt; omega
  exact congrArg₂ f (Fin.ext e1) (Fin.ext e2)

end Cert.SqueezeExcite

end
-- ==== Proof.LibMatmulZero.lean ====
/-
  A matrix product into a zero accumulator, read at one output index, at the extended reals.

  `matmul_zero_apply`: for a product that contracts ONE axis of extent `K`, the entry at an output index `j` is the sum
  over `k : Fin K` of the left operand at `li k` times the right operand at `ri k`, for ANY naming `li`, `ri` of the two
  operand indices whose coordinates are the product's own at `j` and the contracted position `k` (two per-axis
  hypotheses, closed at literal shapes by the dimension numbers' facts). It re-indexes the product's sum over its
  contraction shape to a sum over `Fin K`, so that a value proof can state a layer as `∑ k, a k * W k j`.
-/
import Idealize.ShloMosaic.Lib.ValueIdx
import Idealize.ShloMosaic.PureOps.Ideal.Laws

noncomputable section

namespace Cert.LibMatmulZero

open Idealize.ShloMosaic Idealize.ShloMosaic.ValueIdx

/-- A product contracting ONE axis of extent `K`, into the zero accumulator, read at an output index `j`: the sum over
    `k` of the left operand at `li k` times the right at `ri k`, for any naming `li`, `ri` of the operand indices whose
    coordinates are the product's own (`hl`, `hr'`). -/
theorem matmul_zero_apply {sl sr so : Shape} {φ₁ φ₂ : FTy} (d : DotDims sl sr so) (K : Nat) (hr : d.contr.rank = 1)
    (hs : d.contr.size ⟨0, by omega⟩ = K) (A : FVec Ideal sl φ₁) (B : FVec Ideal sr φ₂) (j : so.Idx)
    (li : Fin K → sl.Idx) (ri : Fin K → sr.Idx)
    (hl : ∀ k a, (d.lhsIdx j ((contrEquiv1 d K hr hs).symm k) a).val = (li k a).val)
    (hr' : ∀ k a, (d.rhsIdx j ((contrEquiv1 d K hr hs).symm k) a).val = (ri k a).val) :
    FloatOps.matmul d none A B (constant so .f32 0x00000000#32) j = ∑ k : Fin K, A (li k) * B (ri k) := by
  refine (Ideal.matmul_constant_zero_apply d none A B j).trans ?_
  rw [← Equiv.sum_comp (contrEquiv1 d K hr hs).symm]
  refine Finset.sum_congr rfl fun k _ => ?_
  rw [show d.lhsIdx j ((contrEquiv1 d K hr hs).symm k) = li k from funext fun a => Fin.ext (hl k a),
    show d.rhsIdx j ((contrEquiv1 d K hr hs).symm k) = ri k from funext fun a => Fin.ext (hr' k a)]

end Cert.LibMatmulZero

end
-- ==== Proof.LibMatmulRows.lean ====
/-
  A matrix product contracting the one shared axis, into a zero accumulator, read at an index, at the ideal values.

  For an `a × b` left operand and a `b × c` right operand (dimension numbers: contract the left's axis 1 with the
  right's axis 0, no batch axes), entry `(p, n)` of the product is `Σ_k A(p, k) · B(k, n)`: the sum of the exact
  products, the zero the accumulator starts from adding nothing.
-/
import Idealize.ShloMosaic.Lib.ValueIdx
import Idealize.ShloMosaic.PureOps.Ideal.Laws
import proofs.«100337_g2000304970060313_pallasbulk_1118_21_alg».proof.Proof.LibMatmulZero

noncomputable section

namespace Cert.LibMatmulRows

open Idealize.ShloMosaic Idealize.ShloMosaic.ValueIdx

variable {a b c : ℕ}

/-- The dimension numbers of an `a × b` by `b × c` product over the shared axis. -/
abbrev rowsDims (wf : DotDims.WF ⟨2, ![a, b]⟩ ⟨2, ![b, c]⟩ ⟨2, ![a, c]⟩ [1] [0] [0] [1] [] []) :
    DotDims ⟨2, ![a, b]⟩ ⟨2, ![b, c]⟩ ⟨2, ![a, c]⟩ where
  lhsContracting := [1]
  rhsContracting := [0]
  lhsNonContracting := [0]
  rhsNonContracting := [1]
  lhsBatch := []
  rhsBatch := []
  wf := wf

/-- THE PRODUCT READ AT `(p, n)`, for the record `rowsDims`. -/
theorem rowsDims_matmul_apply {φ₁ φ₂ : FTy} (wf : DotDims.WF ⟨2, ![a, b]⟩ ⟨2, ![b, c]⟩ ⟨2, ![a, c]⟩ [1] [0] [0] [1] [] [])
    (A : FVec Ideal ⟨2, ![a, b]⟩ φ₁) (B : FVec Ideal ⟨2, ![b, c]⟩ φ₂) (p : Fin a) (n : Fin c) :
    FloatOps.matmul (rowsDims wf) none A B (constant ⟨2, ![a, c]⟩ .f32 0x00000000#32) (ix2 p n)
      = ∑ k : Fin b, A (ix2 p k) * B (ix2 k n) := by
  refine Cert.LibMatmulZero.matmul_zero_apply (rowsDims wf) b rfl rfl A B (ix2 p n) (fun k => ix2 p k) (fun k => ix2 k n) ?_ ?_
  · intro k ax
    match ax with
    | ⟨0, _⟩ =>
      show ((rowsDims wf).lhsIdx (ix2 p n) ((contrEquiv1 (rowsDims wf) b rfl rfl).symm k) 0).val = p.val
      unfold DotDims.lhsIdx
      rw [dif_neg (show ¬(0 : Fin 2) ∈ (rowsDims wf).lhsBatch from List.not_mem_nil),
        dif_pos (show (0 : Fin 2) ∈ (rowsDims wf).lhsNonContracting from List.mem_singleton.mpr rfl)]
      rfl
    | ⟨1, _⟩ =>
      exact ((rowsDims wf).lhsIdx_val_of_single rfl (ix2 p n) _).trans (contrEquiv1_symm_val (rowsDims wf) b rfl rfl k)
  · intro k ax
    match ax with
    | ⟨0, _⟩ =>
      exact ((rowsDims wf).rhsIdx_val_of_single rfl (ix2 p n) _).trans (contrEquiv1_symm_val (rowsDims wf) b rfl rfl k)
    | ⟨1, _⟩ =>
      show ((rowsDims wf).rhsIdx (ix2 p n) ((contrEquiv1 (rowsDims wf) b rfl rfl).symm k) 1).val = n.val
      unfold DotDims.rhsIdx
      rw [dif_neg (show ¬(1 : Fin 2) ∈ (rowsDims wf).rhsBatch from List.not_mem_nil),
        dif_pos (show (1 : Fin 2) ∈ (rowsDims wf).rhsNonContracting from List.mem_singleton.mpr rfl)]
      rfl

/-- THE PRODUCT READ AT `(p, n)`, for any dimension-number record with the six lists of such a product (each
    hypothesis is `rfl` for a record written with those literal fields, whatever proves its `wf`). -/
theorem matmul_rows_apply {φ₁ φ₂ : FTy} (d : DotDims ⟨2, ![a, b]⟩ ⟨2, ![b, c]⟩ ⟨2, ![a, c]⟩)
    (hlc : d.lhsContracting = [1]) (hrc : d.rhsContracting = [0]) (hln : d.lhsNonContracting = [0])
    (hrn : d.rhsNonContracting = [1]) (hlb : d.lhsBatch = []) (hrb : d.rhsBatch = [])
    (A : FVec Ideal ⟨2, ![a, b]⟩ φ₁) (B : FVec Ideal ⟨2, ![b, c]⟩ φ₂) (p : Fin a) (n : Fin c) :
    FloatOps.matmul d none A B (constant ⟨2, ![a, c]⟩ .f32 0x00000000#32) (ix2 p n)
      = ∑ k : Fin b, A (ix2 p k) * B (ix2 k n) := by
  obtain ⟨lc, rc, ln, rn, lb, rb, wf⟩ := d
  dsimp only at hlc hrc hln hrn hlb hrb
  subst hlc hrc hln hrn hlb hrb
  exact rowsDims_matmul_apply wf A B p n

end Cert.LibMatmulRows

end
-- ==== Proof.LibMatmulRhsT.lean ====
/-
  A matrix product whose right operand is stored transposed, into a zero accumulator, read at an index, at the ideal
  values.

  For an `a × b` left operand and a `c × b` right operand (dimension numbers: contract the left's axis 1 with the
  right's axis 1, no batch axes — `A · Bᵀ`), entry `(p, n)` of the product is `Σ_k A(p, k) · B(n, k)`: the sum of the
  exact products, the zero the accumulator starts from adding nothing.
-/
import Idealize.ShloMosaic.Lib.ValueIdx
import Idealize.ShloMosaic.PureOps.Ideal.Laws
import proofs.«100337_g2000304970060313_pallasbulk_1118_21_alg».proof.Proof.LibMatmulZero

noncomputable section

namespace Cert.LibMatmulRhsT

open Idealize.ShloMosaic Idealize.ShloMosaic.ValueIdx

variable {a b c : ℕ}

/-- The dimension numbers of an `a × b` by (`c × b`)ᵀ product over the shared axis. -/
abbrev rhsTDims (wf : DotDims.WF ⟨2, ![a, b]⟩ ⟨2, ![c, b]⟩ ⟨2, ![a, c]⟩ [1] [1] [0] [0] [] []) :
    DotDims ⟨2, ![a, b]⟩ ⟨2, ![c, b]⟩ ⟨2, ![a, c]⟩ where
  lhsContracting := [1]
  rhsContracting := [1]
  lhsNonContracting := [0]
  rhsNonContracting := [0]
  lhsBatch := []
  rhsBatch := []
  wf := wf

/-- THE PRODUCT READ AT `(p, n)`, for the record `rhsTDims`. -/
theorem rhsTDims_matmul_apply {φ₁ φ₂ : FTy} (wf : DotDims.WF ⟨2, ![a, b]⟩ ⟨2, ![c, b]⟩ ⟨2, ![a, c]⟩ [1] [1] [0] [0] [] [])
    (A : FVec Ideal ⟨2, ![a, b]⟩ φ₁) (B : FVec Ideal ⟨2, ![c, b]⟩ φ₂) (p : Fin a) (n : Fin c) :
    FloatOps.matmul (rhsTDims wf) none A B (constant ⟨2, ![a, c]⟩ .f32 0x00000000#32) (ix2 p n)
      = ∑ k : Fin b, A (ix2 p k) * B (ix2 n k) := by
  refine Cert.LibMatmulZero.matmul_zero_apply (rhsTDims wf) b rfl rfl A B (ix2 p n) (fun k => ix2 p k) (fun k => ix2 n k) ?_ ?_
  · intro k ax
    match ax with
    | ⟨0, _⟩ =>
      show ((rhsTDims wf).lhsIdx (ix2 p n) ((contrEquiv1 (rhsTDims wf) b rfl rfl).symm k) 0).val = p.val
      unfold DotDims.lhsIdx
      rw [dif_neg (show ¬(0 : Fin 2) ∈ (rhsTDims wf).lhsBatch from List.not_mem_nil),
        dif_pos (show (0 : Fin 2) ∈ (rhsTDims wf).lhsNonContracting from List.mem_singleton.mpr rfl)]
      rfl
    | ⟨1, _⟩ =>
      exact ((rhsTDims wf).lhsIdx_val_of_single rfl (ix2 p n) _).trans (contrEquiv1_symm_val (rhsTDims wf) b rfl rfl k)
  · intro k ax
    match ax with
    | ⟨0, _⟩ =>
      show ((rhsTDims wf).rhsIdx (ix2 p n) ((contrEquiv1 (rhsTDims wf) b rfl rfl).symm k) 0).val = n.val
      unfold DotDims.rhsIdx
      rw [dif_neg (show ¬(0 : Fin 2) ∈ (rhsTDims wf).rhsBatch from List.not_mem_nil),
        dif_pos (show (0 : Fin 2) ∈ (rhsTDims wf).rhsNonContracting from List.mem_singleton.mpr rfl)]
      rfl
    | ⟨1, _⟩ =>
      exact ((rhsTDims wf).rhsIdx_val_of_single rfl (ix2 p n) _).trans (contrEquiv1_symm_val (rhsTDims wf) b rfl rfl k)

/-- THE PRODUCT READ AT `(p, n)`, for any dimension-number record with the six lists of such a product (each
    hypothesis is `rfl` for a record written with those literal fields, whatever proves its `wf`). -/
theorem matmul_rhsT_apply {φ₁ φ₂ : FTy} (d : DotDims ⟨2, ![a, b]⟩ ⟨2, ![c, b]⟩ ⟨2, ![a, c]⟩)
    (hlc : d.lhsContracting = [1]) (hrc : d.rhsContracting = [1]) (hln : d.lhsNonContracting = [0])
    (hrn : d.rhsNonContracting = [0]) (hlb : d.lhsBatch = []) (hrb : d.rhsBatch = [])
    (A : FVec Ideal ⟨2, ![a, b]⟩ φ₁) (B : FVec Ideal ⟨2, ![c, b]⟩ φ₂) (p : Fin a) (n : Fin c) :
    FloatOps.matmul d none A B (constant ⟨2, ![a, c]⟩ .f32 0x00000000#32) (ix2 p n)
      = ∑ k : Fin b, A (ix2 p k) * B (ix2 n k) := by
  obtain ⟨lc, rc, ln, rn, lb, rb, wf⟩ := d
  dsimp only at hlc hrc hln hrn hlb hrb
  subst hlc hrc hln hrn hlb hrb
  exact rhsTDims_matmul_apply wf A B p n

end Cert.LibMatmulRhsT

end
-- ==== Proof.LibMiddleSum.lean ====
/-
  A sum over the two middle axes of a rank-4 array, read at an index, at the ideal values.

  For an array `[a, m, n, c]` reduced over axes 1 and 2 into `[a, c]` (a channel's sum over its `m × n` positions
  when the channels are the last axis), entry `(p, q)` is the double sum over `(h, w)` of the array at
  `(p, h, w, q)`: the reduction sums the source over the set of indices that drop to `(p, q)`, and that set is
  the image of `Fin m × Fin n` under `(h, w) ↦ (p, h, w, q)`.
-/
import Idealize.ShloMosaic.Lib.ValueIdx
import Idealize.ShloMosaic.PureOps.Ideal.Laws

noncomputable section

namespace Cert.LibMiddleSum

open Idealize.ShloMosaic Idealize.ShloMosaic.ValueIdx

variable {a m n c : ℕ}

/-- The indices dropping to `(p, q)`, summed, are the two middle coordinates, summed — in any commutative monoid. -/
theorem sum_filter_drop_middle {M : Type*} [AddCommMonoid M]
    (hred : (⟨4, ![a, m, n, c]⟩ : Shape).Reduces [1, 2] ⟨2, ![a, c]⟩) (x : (⟨4, ![a, m, n, c]⟩ : Shape).Idx → M)
    (p : Fin a) (q : Fin c) :
    ∑ i ∈ Finset.univ.filter (fun i => hred.drop i = ix2 p q), x i = ∑ h : Fin m, ∑ w : Fin n, x (ix4 p h w q) := by
  have d0 : ∀ i : (⟨4, ![a, m, n, c]⟩ : Shape).Idx, (hred.drop i 0).val = (i 0).val :=
    fun i => hred.drop_apply_val_of_eq i 0 0
      (show (0 : ℕ) < ((List.finRange 4).filter (· ∉ ([1, 2] : List (Fin 4)))).length by decide)
      (show ((List.finRange 4).filter (· ∉ ([1, 2] : List (Fin 4))))[0]'(by decide) = (0 : Fin 4) by decide)
  have d1 : ∀ i : (⟨4, ![a, m, n, c]⟩ : Shape).Idx, (hred.drop i 1).val = (i 3).val :=
    fun i => hred.drop_apply_val_of_eq i 1 3
      (show (1 : ℕ) < ((List.finRange 4).filter (· ∉ ([1, 2] : List (Fin 4)))).length by decide)
      (show ((List.finRange 4).filter (· ∉ ([1, 2] : List (Fin 4))))[1]'(by decide) = (3 : Fin 4) by decide)
  rw [← Fintype.sum_prod_type' (f := fun h w => x (ix4 p h w q))]
  refine Finset.sum_nbij' (fun i => ((i 1, i 2) : Fin m × Fin n)) (fun hw => ix4 p hw.1 hw.2 q) ?_ ?_ ?_ ?_ ?_
  · intro i _; exact Finset.mem_univ _
  · intro hw _
    refine Finset.mem_filter.2 ⟨Finset.mem_univ _, funext fun ax => Fin.ext ?_⟩
    match ax with
    | ⟨0, _⟩ => exact d0 _
    | ⟨1, _⟩ => exact d1 _
  · intro i hi
    have hj := (Finset.mem_filter.1 hi).2
    have e0 : (i 0).val = p.val := (d0 i).symm.trans (congrArg (fun j : (⟨2, ![a, c]⟩ : Shape).Idx => (j 0).val) hj)
    have e1 : (i 3).val = q.val := (d1 i).symm.trans (congrArg (fun j : (⟨2, ![a, c]⟩ : Shape).Idx => (j 1).val) hj)
    funext ax
    match ax with
    | ⟨0, _⟩ => exact Fin.ext e0.symm
    | ⟨1, _⟩ => rfl
    | ⟨2, _⟩ => rfl
    | ⟨3, _⟩ => exact Fin.ext e1.symm
  · intro hw _; rfl
  · intro i hi
    have hj := (Finset.mem_filter.1 hi).2
    have e0 : (i 0).val = p.val := (d0 i).symm.trans (congrArg (fun j : (⟨2, ![a, c]⟩ : Shape).Idx => (j 0).val) hj)
    have e1 : (i 3).val = q.val := (d1 i).symm.trans (congrArg (fun j : (⟨2, ![a, c]⟩ : Shape).Idx => (j 1).val) hj)
    refine congrArg x (funext fun ax => ?_)
    match ax with
    | ⟨0, _⟩ => exact Fin.ext e0
    | ⟨1, _⟩ => rfl
    | ⟨2, _⟩ => rfl
    | ⟨3, _⟩ => exact Fin.ext e1

/-- So a float `vector.multi_reduction <add>` over the two middle axes, read at `(p, q)` at the ideal values, is
    that double sum. -/
theorem multiReduction_add_middle {φ : FTy} (src : FVec Ideal ⟨4, ![a, m, n, c]⟩ φ) (acc : BitVec φ.bits)
    (hred : (⟨4, ![a, m, n, c]⟩ : Shape).Reduces [1, 2] ⟨2, ![a, c]⟩) (hφ : FKind.Formats φ)
    (hacc : acc = FKind.add.neutral φ hφ) (p : Fin a) (q : Fin c) :
    multiReduction .add [1, 2] ⟨2, ![a, c]⟩ src acc hred hφ hacc (ix2 p q) = ∑ h : Fin m, ∑ w : Fin n, src (ix4 p h w q) :=
  sum_filter_drop_middle hred src p q

end Cert.LibMiddleSum

end
-- ==== Proof.KernelPay.lean ====
/-
  The kernel's body at one index of its output block.

  At a grid point the body holds a block X of 8 batch entries laid out [8, 32, 32, 256] (channels last), the first
  layer W1 as [16, 256] and the second layer transposed, W2ᵀ as [16, 256].  Entry (b, h, w, c) of what it stores is

      X (b, h, w, c) · logistic (Σ_r clamp (Σ_c' (Σ_h' Σ_w' X (b, h', w', c')) · (1/1024) · W1 (r, c')) · W2ᵀ (r, c)) :

  the sum over the two position axes is the lane reduction over axes 1 and 2, each layer is a matrix product into
  zero (the first against W1 stored row by row, so contracting both operands' second axis), and the gate of (b, c),
  kept as an [8, 1, 1, 256] array, is repeated over the 32 × 32 positions.
-/
import proofs.«100337_g2000304970060313_pallasbulk_1118_21_alg».proof.Proof.Spec
import proofs.«100337_g2000304970060313_pallasbulk_1118_21_alg».proof.Proof.LibMatmulRows
import proofs.«100337_g2000304970060313_pallasbulk_1118_21_alg».proof.Proof.LibMatmulRhsT
import proofs.«100337_g2000304970060313_pallasbulk_1118_21_alg».proof.Proof.LibMiddleSum
import proofs.«100337_g2000304970060313_pallasbulk_1118_21_alg».proof.Proof.Gen.KernelIdeal.Skeleton
import Idealize.ShloMosaic.Lib.Pipeline.Value

noncomputable section

namespace Cert.KernelIdeal.Hand

open Cert.KernelIdeal Cert.KernelIdeal.Gen Cert.SqueezeExcite
open Idealize.ShloMosaic Idealize.ShloMosaic.ValueIdx

/-- A gate array [8, 256] viewed [8, 1, 1, 256] reads, at (b, u, u', c), its entry (b, c). -/
theorem gateCast_apply (v : FVec Ideal S8x256 .f32) (hc : S8x256.ShapeCasts S8x1x1x256) (b : Fin 8) (u u' : Fin 1) (c : Fin 256) :
    shapeCast S8x1x1x256 v hc (ix4 b u u' c) = v (ix2 b c) :=
  shapeCast_apply v hc _ _ (by
    have hu : u.val = 0 := by omega
    have hu' : u'.val = 0 := by omega
    rw [Shape.rowMajor_val_two, Shape.rowMajor_val_four]
    show b.val * 256 + c.val = ((b.val * 1 + u.val) * 1 + u'.val) * 256 + c.val
    rw [hu, hu']; omega)

/-- The gates [8, 1, 1, 256] repeated over the 32 × 32 positions read, at (b, h, w, c), the gate at (b, 0, 0, c). -/
theorem gateRepeat_apply (v : FVec Ideal S8x1x1x256 .f32) (hb : S8x1x1x256.Broadcasts S8x32x32x256) (b : Fin 8) (h w : Fin 32) (c : Fin 256) :
    broadcastTo S8x32x32x256 v hb (ix4 b h w c) = v (ix4 b (0 : Fin 1) (0 : Fin 1) c) := by
  refine broadcastTo_apply v hb (ix4 b h w c) (ix4 b (0 : Fin 1) (0 : Fin 1) c) fun ax => ?_
  match ax with
  | ⟨0, _⟩ => rfl
  | ⟨1, _⟩ => rfl
  | ⟨2, _⟩ => rfl
  | ⟨3, _⟩ => rfl

/-- THE BODY'S STORE AT (b, h, w, c). -/
theorem pay_apply (x0 : Vec Ideal S8x32x32x256 .f32) (x1 x2 : Vec Ideal S16x256 .f32) (b : Fin 8) (h w : Fin 32) (c : Fin 256) :
    k0_pay1 (F := Ideal) x0 x1 x2 (ix4 b h w c)
      = x0 (ix4 b h w c) * Ideal.logistic (∑ r : Fin 16,
          min cHi (max cLo (∑ c' : Fin 256, ((∑ h' : Fin 32, ∑ w' : Fin 32, x0 (ix4 b h' w' c')) * wMean) * x1 (ix2 r c')))
            * x2 (ix2 r c)) := by
  unfold k0_pay1
  dsimp only
  simp only [shapeCast_self]
  rw [mulf_apply, gateRepeat_apply, gateCast_apply]
  refine congrArg (x0 (ix4 b h w c) * ·) (congrArg Ideal.logistic ?_)
  simp only [matmul]
  rw [Cert.LibMatmulRows.matmul_rows_apply _ rfl rfl rfl rfl rfl rfl]
  refine Finset.sum_congr rfl fun r _ => congrArg (· * x2 (ix2 r c)) ?_
  show min cHi (max cLo (FloatOps.matmul (F := Ideal) dot_S8x256_S16x256_S8x16_1_1_0_0_n_n none _ x1 (constant S8x16 .f32 0x00000000#32) (ix2 b r))) = _
  rw [Cert.LibMatmulRhsT.matmul_rhsT_apply _ rfl rfl rfl rfl rfl rfl]
  refine congrArg (fun s => min cHi (max cLo s)) (Finset.sum_congr rfl fun c' _ => congrArg (· * x1 (ix2 r c')) ?_)
  show multiReduction (F := Ideal) .add [1, 2] S8x256 x0 0x00000000#32 reduces_S8x32x32x256_S8x256 _ _ (ix2 b c') * wMean = _
  exact congrArg (· * wMean) (Cert.LibMiddleSum.multiReduction_add_middle x0 _ _ _ _ b c')

end Cert.KernelIdeal.Hand

end
-- ==== Proof.KernelValue.lean ====
/-
  The kernel's whole run, read as a value.

  The host lines before the kernel call put the channels last: the call's operand is the input moved to
  [64, 32, 32, 256], and the second layer is handed over transposed, [16, 256].  Grid point t is given the 8 batch
  entries 8t .. 8t+7 as its block, and both layers whole.  So the block point t writes back is block t of ONE
  array: the result G, channels last (`Gt`).  The eight blocks fill the array — batch entry e lies in point e / 8's
  block — so the call's result is `Gt`, and the host line after the call, which moves the channels back to axis 1,
  leaves `G` of the three argument arrays.
-/
import proofs.«100337_g2000304970060313_pallasbulk_1118_21_alg».proof.Proof.KernelPay
import proofs.«100337_g2000304970060313_pallasbulk_1118_21_alg».proof.Proof.Gen.KernelIdeal.Frame
import Idealize.ShloMosaic.Lib.Pipeline.Value
import Idealize.ShloMosaic.Lib.StableHlo.Run

noncomputable section

namespace Cert.KernelIdeal.Hand

open Cert.KernelIdeal Cert.KernelIdeal.Gen Cert.SqueezeExcite
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The result with the channels last: entry (e, h, w, c) is G's entry (e, c, h, w). -/
def Gt (x : FVec Ideal S64x256x32x32 .f32) (w1 : FVec Ideal S16x256 .f32) (w2 : FVec Ideal S256x16 .f32) :
    FVec Ideal S64x32x32x256 .f32 :=
  fun i => G x w1 w2 (ix4 (i 0) (i 3) (i 1) (i 2))

theorem hz4 : (![0, 0, 0, 0] : Fin 4 → Nat) = fun _ => 0 := funext fun a => by fin_cases a <;> rfl
theorem hz2 : (![0, 0] : Fin 2 → Nat) = fun _ => 0 := funext fun a => by fin_cases a <;> rfl

/-! ## The host lines before the call -/

/-- The call's first operand is the input with the channels moved last. -/
theorem V_v0 (c : Dev nD) : (V m c main_v0 : S64x32x32x256.Idx → EReal)
    = transpose S64x32x32x256 [0, 2, 3, 1] (m ((c : Thread nD τ).loc main_arg0)) transposes_S64x256x32x32_S64x32x32x256_0_2_3_1 := by
  show StableHlo.after hostOps0 (fun b => m (c, b)) (Proc.devRef .tc main_v0) = _
  after_results

theorem V_v0_apply (c : Dev nD) (e : Fin 64) (h w : Fin 32) (cc : Fin 256) :
    V m c main_v0 (ix4 e h w cc) = m ((c : Thread nD τ).loc main_arg0) (ix4 e cc h w) := by
  refine (congrFun (V_v0 m c) (ix4 e h w cc)).trans ?_
  exact transpose_apply _ _ _ (ix4 e h w cc) (ix4 e cc h w) (fun ax => match ax with
    | ⟨0, _⟩ => rfl | ⟨1, _⟩ => rfl | ⟨2, _⟩ => rfl | ⟨3, _⟩ => rfl)

/-- Its third operand is the second layer transposed. -/
theorem V_v1 (c : Dev nD) : (V m c main_v1 : S16x256.Idx → EReal)
    = transpose S16x256 [1, 0] (m ((c : Thread nD τ).loc main_arg2)) transposes_S256x16_S16x256_1_0 := by
  show StableHlo.after hostOps0 (fun b => m (c, b)) (Proc.devRef .tc main_v1) = _
  after_results

theorem V_v1_apply (c : Dev nD) (r : Fin 16) (cc : Fin 256) :
    V m c main_v1 (ix2 r cc) = m ((c : Thread nD τ).loc main_arg2) (ix2 cc r) := by
  refine (congrFun (V_v1 m c) (ix2 r cc)).trans ?_
  exact transpose_apply _ _ _ (ix2 r cc) (ix2 cc r) (fun ax => match ax with
    | ⟨0, _⟩ => rfl | ⟨1, _⟩ => rfl)

/-! ## The blocks at a point -/

/-- The printed index maps, decided over the eight points: the input's and the output's block index is (t, 0, 0, 0),
    both layers' is (0, 0). -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 4) = t.val ∧ win0_3.index t (1 : Fin 4) = 0 ∧ win0_3.index t (2 : Fin 4) = 0 ∧ win0_3.index t (3 : Fin 4) = 0 :=
  (by decide +kernel : ∀ t : Fin grid0.N, _)

theorem t_lt (t : Fin cfg0.N) : t.val < 8 := by
  have h := t.isLt
  have h8 : cfg0.N = 8 := N_0
  omega

/-- Batch entry `b` of point `t`'s block is batch entry 8t + b of the array. -/
def entryAt (t : Fin cfg0.N) (b : Fin 8) : Fin 64 := ⟨t.val * 8 + b.val, by have := t_lt t; have := b.isLt; omega⟩

/-- The input's block at point t holds batch entries 8t .. 8t+7, channels last. -/
theorem iblk0_apply (c : Dev nD) (t : Fin cfg0.N) (b : Fin 8) (h w : Fin 32) (cc : Fin 256) :
    iblk m c 0 t (ix4 b h w cc) = m ((c : Thread nD τ).loc main_arg0) (ix4 (entryAt t b) cc h w) := by
  obtain ⟨e0, e1, e2, e3, -⟩ := idx_facts t
  show V m c main_v0 (((cfg0.win 0).blk t).view.emb (ix4 b h w cc)) = _
  have he : ((cfg0.win 0).blk t).view.emb (ix4 b h w cc) = ix4 (entryAt t b) h w cc := by
    funext a; apply Fin.ext
    match a with
    | ⟨0, _⟩ => show win0_0.index t (0 : Fin 4) * 8 + 1 * b.val = t.val * 8 + b.val; omega
    | ⟨1, _⟩ => show win0_0.index t (1 : Fin 4) * 32 + 1 * h.val = h.val; omega
    | ⟨2, _⟩ => show win0_0.index t (2 : Fin 4) * 32 + 1 * w.val = w.val; omega
    | ⟨3, _⟩ => show win0_0.index t (3 : Fin 4) * 256 + 1 * cc.val = cc.val; omega
  rw [he]
  exact V_v0_apply m c (entryAt t b) h w cc

/-- The first layer's block at any point is the first layer. -/
theorem iblk1_apply (c : Dev nD) (t : Fin cfg0.N) (r : Fin 16) (cc : Fin 256) :
    iblk m c 1 t (ix2 r cc) = m ((c : Thread nD τ).loc main_arg1) (ix2 r cc) := by
  obtain ⟨-, -, -, -, e0, e1, -⟩ := idx_facts t
  show V m c main_arg1 (((cfg0.win 1).blk t).view.emb (ix2 r cc)) = _
  have he : ((cfg0.win 1).blk t).view.emb (ix2 r cc) = ix2 r cc := by
    funext a; apply Fin.ext
    match a with
    | ⟨0, _⟩ => show win0_1.index t (0 : Fin 2) * 16 + 1 * r.val = r.val; omega
    | ⟨1, _⟩ => show win0_1.index t (1 : Fin 2) * 256 + 1 * cc.val = cc.val; omega
  rw [he, V_main_arg1]

/-- The second layer's block at any point is the second layer, transposed. -/
theorem iblk2_apply (c : Dev nD) (t : Fin cfg0.N) (r : Fin 16) (cc : Fin 256) :
    iblk m c 2 t (ix2 r cc) = m ((c : Thread nD τ).loc main_arg2) (ix2 cc r) := by
  obtain ⟨-, -, -, -, -, -, e0, e1, -⟩ := idx_facts t
  show V m c main_v1 (((cfg0.win 2).blk t).view.emb (ix2 r cc)) = _
  have he : ((cfg0.win 2).blk t).view.emb (ix2 r cc) = ix2 r cc := by
    funext a; apply Fin.ext
    match a with
    | ⟨0, _⟩ => show win0_2.index t (0 : Fin 2) * 16 + 1 * r.val = r.val; omega
    | ⟨1, _⟩ => show win0_2.index t (1 : Fin 2) * 256 + 1 * cc.val = cc.val; omega
  rw [he]
  exact V_v1_apply m c r cc

/-! ## What a point writes back -/

/-- The body's store, over ANY three blocks that are batch entries 8T .. 8T+7 of `x` with the channels last, `w1`, and
    `w2` transposed: entry j is G's entry at j's batch entry of the array, with the channels back on axis 1. -/
theorem pay_eq_G (x : FVec Ideal S64x256x32x32 .f32) (w1 : FVec Ideal S16x256 .f32) (w2 : FVec Ideal S256x16 .f32)
    (x0 : Vec Ideal S8x32x32x256 .f32) (x1 x2 : Vec Ideal S16x256 .f32) (E : Fin 8 → Fin 64)
    (h0 : ∀ (b : Fin 8) (h w : Fin 32) (cc : Fin 256), x0 (ix4 b h w cc) = x (ix4 (E b) cc h w))
    (h1 : ∀ (r : Fin 16) (cc : Fin 256), x1 (ix2 r cc) = w1 (ix2 r cc))
    (h2 : ∀ (r : Fin 16) (cc : Fin 256), x2 (ix2 r cc) = w2 (ix2 cc r))
    (j : S8x32x32x256.Idx) :
    k0_pay1 (F := Ideal) x0 x1 x2 j = G x w1 w2 (ix4 (E (j 0)) (j 3) (j 1) (j 2)) := by
  obtain ⟨b, h, w, cc, rfl⟩ : ∃ (b : Fin 8) (h w : Fin 32) (cc : Fin 256), j = ix4 b h w cc := ⟨j 0, j 1, j 2, j 3, eq_ix4 j⟩
  rw [pay_apply]
  show _ = x (ix4 (E b) cc h w) * gate x w1 w2 (E b) cc
  unfold gate hiddenVal mean
  simp only [h0, h1, h2]

/-- WHAT POINT t WRITES BACK is block t of the result with the channels last. -/
theorem flushed_eq (c : Dev nD) (t : Fin cfg0.N) :
    (dats m 0 c).flushed 3 t = ((cfg0.win 3).blk t).view.read (Elt Ideal)
      (Gt (m ((c : Thread nD τ).loc main_arg0)) (m ((c : Thread nD τ).loc main_arg1)) (m ((c : Thread nD τ).loc main_arg2))) := by
  show (cfg0.win 3).cut (grid0.coords t) ((dats m 0 c).after 3 t) = _
  rw [after0_3]
  unfold out0_3
  rw [View.canon_unit_zero hz4]
  simp only [View.ld_unit_zero (S := S8x32x32x256) hz4, View.ld_unit_zero (S := S16x256) hz2]
  obtain ⟨-, -, -, -, -, -, -, -, e0, e1, e2, e3⟩ := idx_facts t
  funext j
  refine (pay_eq_G (m ((c : Thread nD τ).loc main_arg0)) (m ((c : Thread nD τ).loc main_arg1)) (m ((c : Thread nD τ).loc main_arg2))
    (iblk m c 0 t) (iblk m c 1 t) (iblk m c 2 t) (entryAt t) (iblk0_apply m c t) (iblk1_apply m c t) (iblk2_apply m c t) j).trans ?_
  show _ = Gt _ _ _ (((cfg0.win 3).blk t).view.emb j)
  unfold Gt
  refine congrArg (G _ _ _) (funext fun a => Fin.ext ?_)
  match a with
  | ⟨0, _⟩ => show t.val * 8 + (j 0).val = win0_3.index t (0 : Fin 4) * 8 + 1 * (j 0).val; omega
  | ⟨1, _⟩ => show (j 3).val = win0_3.index t (3 : Fin 4) * 256 + 1 * (j 3).val; omega
  | ⟨2, _⟩ => show (j 1).val = win0_3.index t (1 : Fin 4) * 32 + 1 * (j 1).val; omega
  | ⟨3, _⟩ => show (j 2).val = win0_3.index t (2 : Fin 4) * 32 + 1 * (j 2).val; omega

/-! ## The blocks fill the array -/

/-- An index of the call's result is in point t's block iff each coordinate is in the block's range on its axis. -/
theorem mem_blk (t : Fin cfg0.N) (i : S64x32x32x256.Idx) :
    i ∈ ((cfg0.win 3).blk t).view.set ↔ ∀ a : Fin 4, win0_3.index t a * S8x32x32x256.size a ≤ (i a).val
      ∧ (i a).val < win0_3.index t a * S8x32x32x256.size a + S8x32x32x256.size a := by
  show i ∈ ((View.whole main_v2).slice (win0_3.rect t)).set ↔ _
  rw [View.set_slice_whole, Rect.mem_set_unit]
  exact Iff.rfl

/-- Every run of 8 batch entries is SOME point's. -/
theorem idx_onto : ∀ q : Fin 8, ∃ t : Fin cfg0.N, win0_3.index t = ![q.val, 0, 0, 0] :=
  (by decide +kernel : ∀ q : Fin 8, ∃ t : Fin grid0.N, win0_3.index t = ![q.val, 0, 0, 0])

/-- Batch entry e lies in the block of the point that holds run e / 8. -/
theorem cover (i : S64x32x32x256.Idx) :
    ∃ t : Fin cfg0.N, (cfg0.win 3).flush t = true ∧ i ∈ ((cfg0.win 3).blk t).view.set := by
  have hi0 : (i 0).val < 64 := (i 0).isLt
  have hi1 : (i 1).val < 32 := (i 1).isLt
  have hi2 : (i 2).val < 32 := (i 2).isLt
  have hi3 : (i 3).val < 256 := (i 3).isLt
  obtain ⟨t, ht⟩ := idx_onto ⟨(i 0).val / 8, by omega⟩
  have q0 : win0_3.index t (0 : Fin 4) = (i 0).val / 8 := congrFun ht 0
  have q1 : win0_3.index t (1 : Fin 4) = 0 := congrFun ht 1
  have q2 : win0_3.index t (2 : Fin 4) = 0 := congrFun ht 2
  have q3 : win0_3.index t (3 : Fin 4) = 0 := congrFun ht 3
  refine ⟨t, flush0_3 t, ?_⟩
  rw [mem_blk]
  intro a
  match a with
  | ⟨0, _⟩ => show win0_3.index t (0 : Fin 4) * 8 ≤ (i 0).val ∧ (i 0).val < win0_3.index t (0 : Fin 4) * 8 + 8; omega
  | ⟨1, _⟩ => show win0_3.index t (1 : Fin 4) * 32 ≤ (i 1).val ∧ (i 1).val < win0_3.index t (1 : Fin 4) * 32 + 32; omega
  | ⟨2, _⟩ => show win0_3.index t (2 : Fin 4) * 32 ≤ (i 2).val ∧ (i 2).val < win0_3.index t (2 : Fin 4) * 32 + 32; omega
  | ⟨3, _⟩ => show win0_3.index t (3 : Fin 4) * 256 ≤ (i 3).val ∧ (i 3).val < win0_3.index t (3 : Fin 4) * 256 + 256; omega

/-- THE CALL'S RESULT after the last point: the result with the channels last. -/
theorem final (c : Dev nD) : (dats m 0 c).arrAt 3 cfg0.N
    = Gt (m ((c : Thread nD τ).loc main_arg0)) (m ((c : Thread nD τ).loc main_arg1)) (m ((c : Thread nD τ).loc main_arg2)) :=
  (dats m 0 c).arrAt_eq_of_cover 3 _ (fun t _ => flushed_eq m c t) cover

/-! ## The host line after the call, and the run -/

/-- The program's result: the call's result with the channels moved back to axis 1, which is G. -/
theorem tail_v3 (c : Dev nD) : Pipeline.afterTail₀ cfgs (dats m) 0 (V0 m) [hostOps1] c main_v3
    = G (m ((c : Thread nD τ).loc main_arg0)) (m ((c : Thread nD τ).loc main_arg1)) (m ((c : Thread nD τ).loc main_arg2)) := by
  unfold Pipeline.afterTail₀
  show StableHlo.after hostOps1 _ (Proc.devRef .tc main_v3) = _
  after_results
  have hw := (Pipeline.withArrays_arr spec0 launch0.win.arr_inj c (V0 m c) (fun w => (dats m 0 c).arrAt w cfg0.N) 3).trans (final m c)
  funext i
  obtain ⟨e, cc, h, w, rfl⟩ : ∃ (e : Fin 64) (cc : Fin 256) (h w : Fin 32), i = ix4 e cc h w := ⟨i 0, i 1, i 2, i 3, eq_ix4 i⟩
  refine (transpose_apply _ _ _ (ix4 e cc h w) (ix4 e h w cc) (fun ax => match ax with
    | ⟨0, _⟩ => rfl | ⟨1, _⟩ => rfl | ⟨2, _⟩ => rfl | ⟨3, _⟩ => rfl)).trans ?_
  exact congrFun hw (ix4 e h w cc)

/-- THE KERNEL'S RUN: every weakly fair execution ends with the result buffer at G of the three argument arrays, and the
    arguments as launched. -/
theorem run : θ_run defs (onTc (τ := τ) (main (F := Ideal))) ⟨m, fun _ => 0, ρ⟩ fun r => ∀ c : Dev nD,
      r.2.mem ((c : Thread nD τ).loc main_v3)
        = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨((h c).2 main_v3 (Pipeline.mem_restRefs_of main_v3 (by decide) (by decide))).trans (tail_v3 m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Hand

end
-- ==== Proof.LibColumn.lean ====
/-
  A sum kept as a column: the two layout steps every `sum(axis=1, keepdims=True)` meets, read at an index.

  A vector of `a` entries viewed as an `a × 1` column has, at `(i, 0)`, the vector's entry `i`; and an `a × 1`
  column repeated along `b` columns has, at `(p, c)`, the column's entry `p`.  (Their companions for a row — a
  vector viewed `1 × a`, a `1 × b` row repeated along `a` rows — are in the library's layout file.)
-/
import Idealize.ShloMosaic.Lib.ValueIdx
import Idealize.ShloMosaic.Lib.ValueLayout
import Idealize.ShloMosaic.Lib.Pipeline.Value

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.RefPay.lean ====
/-
  The reference's body at one index of its output block.

  At a grid point the body holds ONE batch entry's block X, laid out [1, 256, 1024] (each channel's 32 × 32 positions
  as one run of 1024), the first layer W1 as [16, 256] and the second W2 as [256, 16].  Entry (0, c, k) of what it
  stores is

      X (0, c, k) · logistic (Σ_r W2 (c, r) · clamp (Σ_c' W1 (r, c') · ((Σ_k' X (0, c', k')) · (1/1024)))) :

  the averages, the hidden values and the gates are kept as columns ([256, 1], [16, 1], [256, 1]), each layer is a
  matrix product of the layer's matrix with a column, into zero, and the gate column is repeated along the 1024
  positions.
-/
import proofs.«100337_g2000304970060313_pallasbulk_1118_21_alg».proof.Proof.Spec
import proofs.«100337_g2000304970060313_pallasbulk_1118_21_alg».proof.Proof.LibMatmulRows
import proofs.«100337_g2000304970060313_pallasbulk_1118_21_alg».proof.Proof.LibColumn
import proofs.«100337_g2000304970060313_pallasbulk_1118_21_alg».proof.Proof.Gen.ReferenceIdeal.Skeleton
import Idealize.ShloMosaic.Lib.Pipeline.Value
import Idealize.ShloMosaic.Lib.ValueLayout

noncomputable section

namespace Cert.ReferenceIdeal.Hand

open Cert.ReferenceIdeal Cert.ReferenceIdeal.Gen Cert.SqueezeExcite
open Idealize.ShloMosaic Idealize.ShloMosaic.ValueIdx

/-- A channel's sum over its run of 1024 positions, read at the channel. -/
theorem rowSum_apply (v : FVec Ideal S256x1024 .f32) (hred : S256x1024.Reduces [1] S256) (hφ : FKind.Formats .f32)
    (hacc : (0x00000000#32 : BitVec 32) = FKind.add.neutral .f32 hφ) (c : Fin 256) :
    multiReduction .add [1] S256 v 0x00000000#32 hred hφ hacc (ix1 c) = ∑ k : Fin 1024, v (ix2 c k) := by
  rw [Ideal.multiReduction_add_single]
  refine Finset.sum_congr rfl fun k _ => congrArg v (funext fun ax => Fin.ext ?_)
  match ax with
  | ⟨0, _⟩ => rfl
  | ⟨1, _⟩ => rfl

/-- THE BODY'S STORE AT (u, c, k). -/
theorem pay_apply (x0 : Vec Ideal S1x256x1024 .f32) (x1 : Vec Ideal S16x256 .f32) (x2 : Vec Ideal S256x16 .f32)
    (u : Fin 1) (c : Fin 256) (k : Fin 1024) :
    k0_pay1 (F := Ideal) x0 x1 x2 (ix3 u c k)
      = x0 (ix3 (0 : Fin 1) c k) * Ideal.logistic (∑ r : Fin 16,
          x2 (ix2 c r) * min cHi (max cLo (∑ c' : Fin 256,
            x1 (ix2 r c') * ((∑ k' : Fin 1024, x0 (ix3 (0 : Fin 1) c' k')) * wMean)))) := by
  unfold k0_pay1
  dsimp only
  rw [shapeCast_ab_1ab_apply, mulf_apply, shapeCast_1ab_ab_apply, Cert.LibColumn.broadcastTo_a1_ab_apply]
  refine congrArg (x0 (ix3 (0 : Fin 1) c k) * ·) (congrArg Ideal.logistic ?_)
  simp only [matmul]
  rw [Cert.LibMatmulRows.matmul_rows_apply _ rfl rfl rfl rfl rfl rfl]
  refine Finset.sum_congr rfl fun r _ => congrArg (x2 (ix2 c r) * ·) ?_
  show min cHi (max cLo (FloatOps.matmul (F := Ideal) dot_S16x256_S256x1_S16x1_1_0_0_1_n_n none x1 _ (constant S16x1 .f32 0x00000000#32) (ix2 r (0 : Fin 1)))) = _
  rw [Cert.LibMatmulRows.matmul_rows_apply _ rfl rfl rfl rfl rfl rfl]
  refine congrArg (fun s => min cHi (max cLo s)) (Finset.sum_congr rfl fun c' _ => congrArg (x1 (ix2 r c') * ·) ?_)
  show shapeCast S256x1 (multiReduction (F := Ideal) .add [1] S256 _ 0x00000000#32 reduces_S256x1024_S256 _ _) shapeCasts_S256_S256x1 (ix2 c' (0 : Fin 1)) * wMean = _
  rw [Cert.LibColumn.shapeCast_a_a1_apply]
  refine congrArg (· * wMean) ((rowSum_apply _ _ _ _ c').trans (Finset.sum_congr rfl fun k' _ => ?_))
  rw [shapeCast_1ab_ab_apply]

end Cert.ReferenceIdeal.Hand

end
-- ==== Proof.RefValue.lean ====
/-
  The reference's whole run, read as a value.

  The host line before the kernel call merges the two position axes: the call's operand is the input viewed
  [64, 256, 1024], position k of a channel being row k / 32, column k % 32.  Grid point t is given batch entry t as
  its block, and both layers whole.  So the block point t writes back is block t of ONE array: the result G with
  the positions merged (`Gr`).  The 64 blocks fill the array, so the call's result is `Gr`, and the host line after
  the call, which splits the positions again, leaves `G` of the three argument arrays.

  Against the form the specification is written in, the body multiplies each layer's matrix from the left (so the
  factors of two products change sides) and sums a channel's positions as one run of 1024 (`sum_flat`).
-/
import proofs.«100337_g2000304970060313_pallasbulk_1118_21_alg».proof.Proof.RefPay
import proofs.«100337_g2000304970060313_pallasbulk_1118_21_alg».proof.Proof.Gen.ReferenceIdeal.Frame
import Idealize.ShloMosaic.Lib.Pipeline.Value
import Idealize.ShloMosaic.Lib.StableHlo.Run

noncomputable section

namespace Cert.ReferenceIdeal.Hand

open Cert.ReferenceIdeal Cert.ReferenceIdeal.Gen Cert.SqueezeExcite
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The result with the positions merged: entry (e, c, k) is G's entry (e, c, k / 32, k % 32). -/
def Gr (x : FVec Ideal S64x256x32x32 .f32) (w1 : FVec Ideal S16x256 .f32) (w2 : FVec Ideal S256x16 .f32) :
    FVec Ideal S64x256x1024 .f32 :=
  fun i => G x w1 w2 (ix4 (i 0) (i 1) (rowOf (i 2)) (colOf (i 2)))

theorem hz3 : (![0, 0, 0] : Fin 3 → Nat) = fun _ => 0 := funext fun a => by fin_cases a <;> rfl
theorem hz2 : (![0, 0] : Fin 2 → Nat) = fun _ => 0 := funext fun a => by fin_cases a <;> rfl

/-! ## The host line before the call -/

/-- The call's first operand is the input with the positions merged. -/
theorem V_v0 (c : Dev nD) : (V m c main_v0 : S64x256x1024.Idx → EReal)
    = shapeCast S64x256x1024 (m ((c : Thread nD τ).loc main_arg0)) shapeCasts_S64x256x32x32_S64x256x1024 := by
  show StableHlo.after hostOps0 (fun b => m (c, b)) (Proc.devRef .tc main_v0) = _
  after_results
  rfl

theorem V_v0_apply (c : Dev nD) (e : Fin 64) (cc : Fin 256) (k : Fin 1024) :
    V m c main_v0 (ix3 e cc k) = m ((c : Thread nD τ).loc main_arg0) (ix4 e cc (rowOf k) (colOf k)) := by
  refine (congrFun (V_v0 m c) (ix3 e cc k)).trans ?_
  refine shapeCast_apply _ _ (ix3 e cc k) (ix4 e cc (rowOf k) (colOf k)) ?_
  rw [Shape.rowMajor_val_three, Shape.rowMajor_val_four]
  show ((e.val * 256 + cc.val) * 32 + k.val / 32) * 32 + k.val % 32 = (e.val * 256 + cc.val) * 1024 + k.val
  omega

/-! ## The blocks at a point -/

/-- The printed index maps, decided over the 64 points: the input's and the output's block index is (t, 0, 0), both
    layers' is (0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- Point `t`'s batch entry. -/
def entryAt (t : Fin cfg0.N) : Fin 64 := ⟨t.val, by have h := t.isLt; have h64 : cfg0.N = 64 := N_0; omega⟩

/-- The input's block at point t holds batch entry t, positions merged. -/
theorem iblk0_apply (c : Dev nD) (t : Fin cfg0.N) (u : Fin 1) (cc : Fin 256) (k : Fin 1024) :
    iblk m c 0 t (ix3 u cc k) = m ((c : Thread nD τ).loc main_arg0) (ix4 (entryAt t) cc (rowOf k) (colOf k)) := by
  obtain ⟨e0, e1, e2, -⟩ := idx_facts t
  have hu : u.val = 0 := by omega
  show V m c main_v0 (((cfg0.win 0).blk t).view.emb (ix3 u cc k)) = _
  have he : ((cfg0.win 0).blk t).view.emb (ix3 u cc k) = ix3 (entryAt t) cc k := by
    funext a; apply Fin.ext
    match a with
    | ⟨0, _⟩ => show win0_0.index t (0 : Fin 3) * 1 + 1 * u.val = t.val; omega
    | ⟨1, _⟩ => show win0_0.index t (1 : Fin 3) * 256 + 1 * cc.val = cc.val; omega
    | ⟨2, _⟩ => show win0_0.index t (2 : Fin 3) * 1024 + 1 * k.val = k.val; omega
  rw [he]
  exact V_v0_apply m c (entryAt t) cc k

/-- The first layer's block at any point is the first layer. -/
theorem iblk1_apply (c : Dev nD) (t : Fin cfg0.N) (r : Fin 16) (cc : Fin 256) :
    iblk m c 1 t (ix2 r cc) = m ((c : Thread nD τ).loc main_arg1) (ix2 r cc) := by
  obtain ⟨-, -, -, e0, e1, -⟩ := idx_facts t
  show V m c main_arg1 (((cfg0.win 1).blk t).view.emb (ix2 r cc)) = _
  have he : ((cfg0.win 1).blk t).view.emb (ix2 r cc) = ix2 r cc := by
    funext a; apply Fin.ext
    match a with
    | ⟨0, _⟩ => show win0_1.index t (0 : Fin 2) * 16 + 1 * r.val = r.val; omega
    | ⟨1, _⟩ => show win0_1.index t (1 : Fin 2) * 256 + 1 * cc.val = cc.val; omega
  rw [he, V_main_arg1]

/-- The second layer's block at any point is the second layer. -/
theorem iblk2_apply (c : Dev nD) (t : Fin cfg0.N) (cc : Fin 256) (r : Fin 16) :
    iblk m c 2 t (ix2 cc r) = m ((c : Thread nD τ).loc main_arg2) (ix2 cc r) := by
  obtain ⟨-, -, -, -, -, e0, e1, -⟩ := idx_facts t
  show V m c main_arg2 (((cfg0.win 2).blk t).view.emb (ix2 cc r)) = _
  have he : ((cfg0.win 2).blk t).view.emb (ix2 cc r) = ix2 cc r := by
    funext a; apply Fin.ext
    match a with
    | ⟨0, _⟩ => show win0_2.index t (0 : Fin 2) * 256 + 1 * cc.val = cc.val; omega
    | ⟨1, _⟩ => show win0_2.index t (1 : Fin 2) * 16 + 1 * r.val = r.val; omega
  rw [he, V_main_arg2]

/-! ## What a point writes back -/

/-- The body's store, over ANY three blocks that are batch entry `e` of `x` with the positions merged, `w1` and `w2`:
    entry j is G's entry at batch entry `e`, with j's position split into row and column.  The factors of both layers'
    products change sides, and the channel's run of 1024 is summed as 32 × 32. -/
theorem pay_eq_G (x : FVec Ideal S64x256x32x32 .f32) (w1 : FVec Ideal S16x256 .f32) (w2 : FVec Ideal S256x16 .f32)
    (x0 : Vec Ideal S1x256x1024 .f32) (x1 : Vec Ideal S16x256 .f32) (x2 : Vec Ideal S256x16 .f32) (e : Fin 64)
    (h0 : ∀ (u : Fin 1) (cc : Fin 256) (k : Fin 1024), x0 (ix3 u cc k) = x (ix4 e cc (rowOf k) (colOf k)))
    (h1 : ∀ (r : Fin 16) (cc : Fin 256), x1 (ix2 r cc) = w1 (ix2 r cc))
    (h2 : ∀ (cc : Fin 256) (r : Fin 16), x2 (ix2 cc r) = w2 (ix2 cc r))
    (j : S1x256x1024.Idx) :
    k0_pay1 (F := Ideal) x0 x1 x2 j = G x w1 w2 (ix4 e (j 1) (rowOf (j 2)) (colOf (j 2))) := by
  obtain ⟨u, cc, k, rfl⟩ : ∃ (u : Fin 1) (cc : Fin 256) (k : Fin 1024), j = ix3 u cc k := ⟨j 0, j 1, j 2, eq_ix3 j⟩
  rw [pay_apply]
  show _ = x (ix4 e cc (rowOf k) (colOf k)) * gate x w1 w2 e cc
  unfold gate hiddenVal mean
  simp only [h0, h1, h2]
  refine congrArg (x (ix4 e cc (rowOf k) (colOf k)) * ·) (congrArg Ideal.logistic (Finset.sum_congr rfl fun r _ => ?_))
  refine (mul_comm _ _).trans (congrArg (· * w2 (ix2 cc r)) (congrArg (fun s => min cHi (max cLo s))
    (Finset.sum_congr rfl fun c' _ => ?_)))
  exact (mul_comm _ _).trans (congrArg (· * w1 (ix2 r c')) (congrArg (· * wMean)
    (sum_flat fun h w => x (ix4 e c' h w))))

/-- WHAT POINT t WRITES BACK is block t of the result with the positions merged. -/
theorem flushed_eq (c : Dev nD) (t : Fin cfg0.N) :
    (dats m 0 c).flushed 3 t = ((cfg0.win 3).blk t).view.read (Elt Ideal)
      (Gr (m ((c : Thread nD τ).loc main_arg0)) (m ((c : Thread nD τ).loc main_arg1)) (m ((c : Thread nD τ).loc main_arg2))) := by
  show (cfg0.win 3).cut (grid0.coords t) ((dats m 0 c).after 3 t) = _
  rw [after0_3]
  unfold out0_3
  rw [View.canon_unit_zero hz3]
  simp only [View.ld_unit_zero (S := S1x256x1024) hz3, View.ld_unit_zero (S := S16x256) hz2, View.ld_unit_zero (S := S256x16) hz2]
  obtain ⟨-, -, -, -, -, -, -, e0, e1, e2⟩ := idx_facts t
  funext j
  refine (pay_eq_G (m ((c : Thread nD τ).loc main_arg0)) (m ((c : Thread nD τ).loc main_arg1)) (m ((c : Thread nD τ).loc main_arg2))
    (iblk m c 0 t) (iblk m c 1 t) (iblk m c 2 t) (entryAt t) (iblk0_apply m c t) (iblk1_apply m c t) (iblk2_apply m c t) j).trans ?_
  show _ = Gr _ _ _ (((cfg0.win 3).blk t).view.emb j)
  unfold Gr
  have hj0 : (j 0).val = 0 := by have : (j 0).val < 1 := (j 0).isLt; omega
  have a0 : (((cfg0.win 3).blk t).view.emb j 0).val = t.val := by
    show win0_3.index t (0 : Fin 3) * 1 + 1 * (j 0).val = t.val; omega
  have a1 : (((cfg0.win 3).blk t).view.emb j 1).val = (j 1).val := by
    show win0_3.index t (1 : Fin 3) * 256 + 1 * (j 1).val = (j 1).val; omega
  have a2 : (((cfg0.win 3).blk t).view.emb j 2).val = (j 2).val := by
    show win0_3.index t (2 : Fin 3) * 1024 + 1 * (j 2).val = (j 2).val; omega
  refine congrArg (G _ _ _) (funext fun a => Fin.ext ?_)
  match a with
  | ⟨0, _⟩ => exact a0.symm
  | ⟨1, _⟩ => exact a1.symm
  | ⟨2, _⟩ => show (j 2).val / 32 = (((cfg0.win 3).blk t).view.emb j 2).val / 32; rw [a2]
  | ⟨3, _⟩ => show (j 2).val % 32 = (((cfg0.win 3).blk t).view.emb j 2).val % 32; rw [a2]

/-! ## The blocks fill the array -/

/-- An index of the call's result is in point t's block iff each coordinate is in the block's range on its axis. -/
theorem mem_blk (t : Fin cfg0.N) (i : S64x256x1024.Idx) :
    i ∈ ((cfg0.win 3).blk t).view.set ↔ ∀ a : Fin 3, win0_3.index t a * S1x256x1024.size a ≤ (i a).val
      ∧ (i a).val < win0_3.index t a * S1x256x1024.size a + S1x256x1024.size a := by
  show i ∈ ((View.whole main_v1).slice (win0_3.rect t)).set ↔ _
  rw [View.set_slice_whole, Rect.mem_set_unit]
  exact Iff.rfl

/-- Every batch entry is SOME point's. -/
theorem idx_onto : ∀ q : Fin 64, ∃ t : Fin cfg0.N, win0_3.index t = ![q.val, 0, 0] :=
  (by decide +kernel : ∀ q : Fin 64, ∃ t : Fin grid0.N, win0_3.index t = ![q.val, 0, 0])

theorem cover (i : S64x256x1024.Idx) :
    ∃ t : Fin cfg0.N, (cfg0.win 3).flush t = true ∧ i ∈ ((cfg0.win 3).blk t).view.set := by
  have hi0 : (i 0).val < 64 := (i 0).isLt
  have hi1 : (i 1).val < 256 := (i 1).isLt
  have hi2 : (i 2).val < 1024 := (i 2).isLt
  obtain ⟨t, ht⟩ := idx_onto ⟨(i 0).val, hi0⟩
  have q0 : win0_3.index t (0 : Fin 3) = (i 0).val := congrFun ht 0
  have q1 : win0_3.index t (1 : Fin 3) = 0 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 1024 ≤ (i 2).val ∧ (i 2).val < win0_3.index t (2 : Fin 3) * 1024 + 1024; omega

/-- THE CALL'S RESULT after the last point: the result with the positions merged. -/
theorem final (c : Dev nD) : (dats m 0 c).arrAt 3 cfg0.N
    = Gr (m ((c : Thread nD τ).loc main_arg0)) (m ((c : Thread nD τ).loc main_arg1)) (m ((c : Thread nD τ).loc main_arg2)) :=
  (dats m 0 c).arrAt_eq_of_cover 3 _ (fun t _ => flushed_eq m c t) cover

/-! ## The host line after the call, and the run -/

/-- The program's result: the call's result with the positions split again, which is G. -/
theorem tail_v2 (c : Dev nD) : Pipeline.afterTail₀ cfgs (dats m) 0 (V0 m) [hostOps1] c main_v2
    = G (m ((c : Thread nD τ).loc main_arg0)) (m ((c : Thread nD τ).loc main_arg1)) (m ((c : Thread nD τ).loc main_arg2)) := by
  unfold Pipeline.afterTail₀
  show StableHlo.after hostOps1 _ (Proc.devRef .tc main_v2) = _
  after_results
  have hw := (Pipeline.withArrays_arr spec0 launch0.win.arr_inj c (V0 m c) (fun w => (dats m 0 c).arrAt w cfg0.N) 3).trans (final m c)
  funext i
  obtain ⟨e, cc, h, w, rfl⟩ : ∃ (e : Fin 64) (cc : Fin 256) (h w : Fin 32), i = ix4 e cc h w := ⟨i 0, i 1, i 2, i 3, eq_ix4 i⟩
  have hk : h.val * 32 + w.val < 1024 := by have := h.isLt; have := w.isLt; omega
  show shapeCast S64x256x32x32 _ shapeCasts_S64x256x1024_S64x256x32x32 (ix4 e cc h w) = _
  refine (shapeCast_apply _ _ (ix4 e cc h w) (ix3 e cc (⟨h.val * 32 + w.val, hk⟩ : Fin 1024)) (by
    rw [Shape.rowMajor_val_three, Shape.rowMajor_val_four]
    show (e.val * 256 + cc.val) * 1024 + (h.val * 32 + w.val) = ((e.val * 256 + cc.val) * 32 + h.val) * 32 + w.val
    omega)).trans ?_
  refine (congrFun hw (ix3 e cc (⟨h.val * 32 + w.val, hk⟩ : Fin 1024))).trans ?_
  show G _ _ _ (ix4 e cc (rowOf ⟨h.val * 32 + w.val, hk⟩) (colOf ⟨h.val * 32 + w.val, hk⟩)) = _
  have er : rowOf ⟨h.val * 32 + w.val, hk⟩ = h := Fin.ext (by show (h.val * 32 + w.val) / 32 = h.val; have := w.isLt; omega)
  have ec : colOf ⟨h.val * 32 + w.val, hk⟩ = w := Fin.ext (by show (h.val * 32 + w.val) % 32 = w.val; have := w.isLt; omega)
  rw [er, ec]

/-- THE REFERENCE'S RUN: every weakly fair execution ends with the result buffer at G of the three argument arrays, and
    the arguments as launched. -/
theorem run : θ_run defs (onTc (τ := τ) (main (F := Ideal))) ⟨m, fun _ => 0, ρ⟩ fun r => ∀ c : Dev nD,
      r.2.mem ((c : Thread nD τ).loc main_v2)
        = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨((h c).2 main_v2 (Pipeline.mem_restRefs_of main_v2 (by decide) (by decide))).trans (tail_v2 m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.ReferenceIdeal.Hand

end
-- ==== Proof.lean ====
/-
  Squeeze-and-excitation channel attention, f32[64, 256, 32, 32]: the kernel against its reference, at the extended
  reals.

  Both programs compute, for every batch entry b and channel c, the gate

      g (b, c) = logistic (Σ_r clamp₀⁶ (Σ_c' mean x b c' · w1 (r, c')) · w2 (c, r)),     mean x b c' = (Σ_hw x (b, c', hw)) / 1024,

  and multiply every entry of channel c by it (`Cert.SqueezeExcite.G`, Proof/Spec.lean).  The kernel works on the
  input with the channels moved last, eight batch entries per grid point, with the second layer handed over
  transposed, and moves the channels back afterwards; the reference works on the input with each channel's 32 × 32
  positions merged into one run of 1024, one batch entry per grid point, its layers applied from the left to column
  vectors, and splits the positions again afterwards.  The literals (1/1024, 0, 6) are the same bit patterns on both
  sides and are never evaluated.  Each program's result buffer ends at G of the three argument arrays
  (Proof/KernelValue.lean, Proof/RefValue.lean); between the two forms stand only the commutativity of the product
  and a re-indexing of a finite sum, which hold on all extended reals, so the finiteness of the inputs is not used.

  Every program terminates without a fault and leaves its arguments unchanged (the three frames); the idealized
  kernel is the kernel's own text read at the extended reals, no operation rewritten.
-/
import proofs.«100337_g2000304970060313_pallasbulk_1118_21_alg».proof.Defs
import proofs.«100337_g2000304970060313_pallasbulk_1118_21_alg».proof.Proof.Gen.Kernel
import proofs.«100337_g2000304970060313_pallasbulk_1118_21_alg».proof.Proof.Gen.Kernel.Skeleton
import proofs.«100337_g2000304970060313_pallasbulk_1118_21_alg».proof.Proof.Gen.Kernel.Launch
import proofs.«100337_g2000304970060313_pallasbulk_1118_21_alg».proof.Proof.Gen.Kernel.Points
import proofs.«100337_g2000304970060313_pallasbulk_1118_21_alg».proof.Proof.Gen.Kernel.Frame
import proofs.«100337_g2000304970060313_pallasbulk_1118_21_alg».proof.Proof.Gen.KernelIdeal
import proofs.«100337_g2000304970060313_pallasbulk_1118_21_alg».proof.Proof.Gen.KernelIdeal.Skeleton
import proofs.«100337_g2000304970060313_pallasbulk_1118_21_alg».proof.Proof.Gen.KernelIdeal.Launch
import proofs.«100337_g2000304970060313_pallasbulk_1118_21_alg».proof.Proof.Gen.KernelIdeal.Points
import proofs.«100337_g2000304970060313_pallasbulk_1118_21_alg».proof.Proof.Gen.KernelIdeal.Frame
import proofs.«100337_g2000304970060313_pallasbulk_1118_21_alg».proof.Proof.Gen.ReferenceIdeal
import proofs.«100337_g2000304970060313_pallasbulk_1118_21_alg».proof.Proof.Gen.ReferenceIdeal.Skeleton
import proofs.«100337_g2000304970060313_pallasbulk_1118_21_alg».proof.Proof.Gen.ReferenceIdeal.Launch
import proofs.«100337_g2000304970060313_pallasbulk_1118_21_alg».proof.Proof.Gen.ReferenceIdeal.Points
import proofs.«100337_g2000304970060313_pallasbulk_1118_21_alg».proof.Proof.Gen.ReferenceIdeal.Frame
import proofs.«100337_g2000304970060313_pallasbulk_1118_21_alg».proof.Proof.Gen.Pre_finite_inputs
import proofs.«100337_g2000304970060313_pallasbulk_1118_21_alg».proof.Proof.KernelValue
import proofs.«100337_g2000304970060313_pallasbulk_1118_21_alg».proof.Proof.RefValue
import Idealize.ShloMosaic.Adequacy
import Idealize.ShloMosaic.Init

noncomputable section

namespace Cert.Proof

open Idealize.ShloMosaic Idealize.ShloMosaic.TcCoe Idealize.SL.Sem

/-- Each program runs to the end without a fault and leaves its three argument arrays as launched. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

/-- From memories that agree on the three arguments both idealized programs end with the result buffer at G of those
    arguments: the kernel's run states it of its own arguments, the reference's of its own, and the two agree. -/
theorem algebraic : Cert.algebraic_KernelIdeal_ReferenceIdeal := by
  intro m ρ m' ρ' _ hagree
  refine ⟨fun c => Cert.SqueezeExcite.G (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    Cert.KernelIdeal.Hand.run m ρ, ?_⟩
  refine (θ_run Cert.ReferenceIdeal.defs _ _).mono (fun r h c => ⟨?_, (h c).2⟩) (Cert.ReferenceIdeal.Hand.run m' ρ')
  rw [(h c).1, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
